-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S1000000 : S_.BroadcastsInDim S1000000 (![] : Fin 0 → Fin S1000000.rank)
  reducesTo_S1000000_S_d0 : S1000000.ReducesTo [0] S_
  bcast_S_S80x97 : S_.BroadcastsInDim S80x97 (![] : Fin 0 → Fin S80x97.rank)
  reducesTo_S80x97_S_d0_1 : S80x97.ReducesTo [0, 1] S_
  bcast_S_S80 : S_.BroadcastsInDim S80 (![] : Fin 0 → Fin S80.rank)
  reducesTo_S80_S_d0 : S80.ReducesTo [0] S_
  bcast_S_S64x80 : S_.BroadcastsInDim S64x80 (![] : Fin 0 → Fin S64x80.rank)
  reducesTo_S64x80_S_d0_1 : S64x80.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x80 .f32) (main_arg8 : FVec F S64 .f32) (main_v33 : IVec S_ 1) : IVec S_ 1 :=
  let main_v34 : FVec F S64x80 .f32 := Host.absf main_arg7
  let main_cst_12 : FVec F S_ .f32 := constant S_ .f32 0x7F800000#32
  let main_v35 : FVec F S64x80 .f32 := broadcastInDim S64x80 ![] bcast_S_S64x80 main_cst_12
  let main_v36 : IVec S64x80 1 := cmpf .olt main_v34 main_v35
  let main_c_13 : IVec S_ 1 := constantI S_ 1 1#1
  let main_v37 : IVec S_ 1 := (fun x v => Host.reduce IntOp.andi x v reducesTo_S64x80_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1000000 .f32) (main_arg5 : FVec F S80x97 .f32) (main_arg6 : FVec F S80 .f32) (main_arg7 : FVec F S64x80 .f32) (main_arg8 : FVec F S64 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S80x97 .f32 := Host.absf main_arg5
  let main_cst_8 : FVec F S_ .f32 := constant S_ .f32 0x7F800000#32
  let main_v25 : FVec F S80x97 .f32 := broadcastInDim S80x97 ![] bcast_S_S80x97 main_cst_8
  let main_v26 : IVec S80x97 1 := cmpf .olt main_v24 main_v25
  let main_c_9 : IVec S_ 1 := constantI S_ 1 1#1
  let main_v27 : IVec S_ 1 := (fun x v => Host.reduce IntOp.andi x v reducesTo_S80x97_S_d0_1 h_S_) main_v26 main_c_9
  let main_v28 : IVec S_ 1 := andi main_v23 main_v27
  let main_v29 : FVec F S80 .f32 := Host.absf main_arg6
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg7 main_arg8 main_v33

def fn {F : FTy → Type} [FloatOps F] (main_arg0 : FVec F S1000000x16 .f32) (main_arg1 : FVec F S1000000x32 .f32) (main_arg2 : FVec F S1000000x16 .f32) (main_arg3 : FVec F S1000000x32 .f32) (main_arg4 : FVec F S1000000 .f32) (main_arg5 : FVec F S80x97 .f32) (main_arg6 : FVec F S80 .f32) (main_arg7 : FVec F S64x80 .f32) (main_arg8 : FVec F S64 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x32 .f32 := Host.absf main_arg1
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x16 .f32 := Host.absf main_arg2
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S1000000x32 .f32 := Host.absf main_arg3
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg4 main_arg5 main_arg6 main_arg7 main_arg8 main_v13 main_v16
-- ==== Kernel.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S1000000x1 : Shape := ⟨2, ![1000000, 1]⟩
abbrev S97x80 : Shape := ⟨2, ![97, 80]⟩
abbrev S80x64 : Shape := ⟨2, ![80, 64]⟩
abbrev S1000000x64 : Shape := ⟨2, ![1000000, 64]⟩
abbrev S5000x16 : Shape := ⟨2, ![5000, 16]⟩
abbrev S5000x32 : Shape := ⟨2, ![5000, 32]⟩
abbrev S5000x1 : Shape := ⟨2, ![5000, 1]⟩
abbrev S5000x64 : Shape := ⟨2, ![5000, 64]⟩
abbrev S5000x97 : Shape := ⟨2, ![5000, 97]⟩
abbrev S5000x80 : Shape := ⟨2, ![5000, 80]⟩
abbrev S1x80 : Shape := ⟨2, ![1, 80]⟩
abbrev S1x64 : Shape := ⟨2, ![1, 64]⟩

abbrev nBuf : Space → Nat
  | .hbm => 15
  | .vmem => 16
  | .smem => 0
  | _ => 0

abbrev bufTy : (tb : Table) → Fin (tcTables nBuf tb) → BufTy
  | .hbm, ⟨0, _⟩ => ⟨S1000000x16, .f32⟩
  | .hbm, ⟨1, _⟩ => ⟨S1000000x32, .f32⟩
  | .hbm, ⟨2, _⟩ => ⟨S1000000x16, .f32⟩
  | .hbm, ⟨3, _⟩ => ⟨S1000000x32, .f32⟩
  | .hbm, ⟨4, _⟩ => ⟨S1000000, .f32⟩
  | .hbm, ⟨5, _⟩ => ⟨S80x97, .f32⟩
  | .hbm, ⟨6, _⟩ => ⟨S80, .f32⟩
  | .hbm, ⟨7, _⟩ => ⟨S64x80, .f32⟩
  | .hbm, ⟨8, _⟩ => ⟨S64, .f32⟩
  | .hbm, ⟨9, _⟩ => ⟨S1000000x1, .f32⟩
  | .hbm, ⟨10, _⟩ => ⟨S97x80, .f32⟩
  | .hbm, ⟨11, _⟩ => ⟨S97x80, .bf16⟩
  | .hbm, ⟨12, _⟩ => ⟨S80x64, .f32⟩
  | .hbm, ⟨13, _⟩ => ⟨S80x64, .bf16⟩
  | .hbm, ⟨14, _⟩ => ⟨S1000000x64, .f32⟩
  | .local _ .vmem, ⟨0, _⟩ => ⟨S5000x16, .f32⟩
  | .local _ .vmem, ⟨1, _⟩ => ⟨S5000x16, .f32⟩
  | .local _ .vmem, ⟨2, _⟩ => ⟨S5000x32, .f32⟩
  | .local _ .vmem, ⟨3, _⟩ => ⟨S5000x32, .f32⟩
  | .local _ .vmem, ⟨4, _⟩ => ⟨S5000x16, .f32⟩
  | .local _ .vmem, ⟨5, _⟩ => ⟨S5000x16, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S97x80, .bf16⟩
  | .local _ .vmem, ⟨11, _⟩ => ⟨S80, .f32⟩
  | .local _ .vmem, ⟨12, _⟩ => ⟨S80x64, .bf16⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S97x80 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1000000_S1000000x1 : S1000000.ShapeCasts S1000000x1
  transposes_S80x97_S97x80_1_0 : S80x97.Transposes [1, 0] S97x80
  bitsLt_bf16_f32 : FTy.bits .bf16 < FTy.bits .f32
  transposes_S64x80_S80x64_1_0 : S64x80.Transposes [1, 0] S80x64
  inb_S5000x16_S5000x16_0_0 : ∀ a, (![0, 0] : Fin 2 → Nat) a + S5000x16.size a ≤ S5000x16.size a
  h_S5000x16 : 0 < S5000x16.numel
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  concatenates_S5000x16_S5000x32_S5000x16_S5000x32_S5000x1_S5000x97_d1 : Shape.Concatenates [S5000x16, S5000x32, S5000x16, S5000x32, S5000x1] S5000x97 1
  inb_S97x80_S97x80_0_0 : ∀ a, (![0, 0] : Fin 2 → Nat) a + S97x80.size a ≤ S97x80.size a
  h_S97x80 : 0 < S97x80.numel
  shapeCasts_S97x80_S97x80 : S97x80.ShapeCasts S97x80
  inb_S80_S80_0 : ∀ a, (![0] : Fin 1 → Nat) a + S80.size a ≤ S80.size a
  h_S80 : 0 < S80.numel
  shapeCasts_S80_S1x80 : S80.ShapeCasts S1x80
  broadcasts_S1x80_S5000x80 : S1x80.Broadcasts S5000x80
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x97_S97x80_S5000x80_1_0_0_1_n_n_wf : DotDims.WF S5000x97 S97x80 S5000x80 [1] [0] [0] [1] [] []
  dot_S5000x80_S80x64_S5000x64_1_0_0_1_n_n_wf : DotDims.WF S5000x80 S80x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S1000000x16.size a
  hwx0_0 : ∀ i : grid0.Coords, EltTy.bits .f32 = 32 ∨ (Rect.block (s := S1000000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S1000000x32.size a
  hwx0_1 : ∀ i : grid0.Coords, EltTy.bits .f32 = 32 ∨ (Rect.block (s := S1000000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S1000000x16.size a
  hwx0_2 : ∀ i : grid0.Coords, EltTy.bits .f32 = 32 ∨ (Rect.block (s := S1000000x16) S5000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S1000000x32.size a
  hwx0_3 : ∀ i : grid0.Coords, EltTy.bits .f32 = 32 ∨ (Rect.block (s := S1000000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S1000000x1.size a
  hwx0_4 : ∀ i : grid0.Coords, EltTy.bits .f32 = 32 ∨ (Rect.block (s := S1000000x1) S5000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S97x80.size a ≤ S97x80.size a
  hwx0_5 : ∀ i : grid0.Coords, EltTy.bits .bf16 = 32 ∨ (Rect.block (s := S97x80) S97x80.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80.size a ≤ S80.size a
  hwx0_6 : ∀ i : grid0.Coords, EltTy.bits .f32 = 32 ∨ (Rect.block (s := S80) S80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x64.size a ≤ S80x64.size a
  hwx0_7 : ∀ i : grid0.Coords, EltTy.bits .bf16 = 32 ∨ (Rect.block (s := S80x64) S80x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S1000000x64.size a
  hwx0_9 : ∀ i : grid0.Coords, EltTy.bits .f32 = 32 ∨ (Rect.block (s := S1000000x64) S5000x64.size (cc0_transform_9 i) (hinb0_9 i)).WholeWords (EltTy.packing .f32)

variable [Facts₀]

def dot_S5000x97_S97x80_S5000x80_1_0_0_1_n_n : DotDims S5000x97 S97x80 S5000x80 where
  lhsContracting := [1]
  rhsContracting := [0]
  lhsNonContracting := [0]
  rhsNonContracting := [1]
  lhsBatch := []
  rhsBatch := []
  wf := dot_S5000x97_S97x80_S5000x80_1_0_0_1_n_n_wf
def dot_S5000x80_S80x64_S5000x64_1_0_0_1_n_n : DotDims S5000x80 S80x64 S5000x64 where
  lhsContracting := [1]
  rhsContracting := [0]
  lhsNonContracting := [0]
  rhsNonContracting := [1]
  lhsBatch := []
  rhsBatch := []
  wf := dot_S5000x80_S80x64_S5000x64_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S97x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S80x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S1000000x32 : Shape := ⟨2, ![1000000, 32]⟩
abbrev S1000000 : Shape := ⟨1, ![1000000]⟩
abbrev S80x97 : Shape := ⟨2, ![80, 97]⟩
abbrev S80 : Shape := ⟨1, ![80]⟩
abbrev S64x80 : Shape := ⟨2, ![64, 80]⟩
abbrev S64 : Shape := ⟨1, ![64]⟩
abbrev S1000000x1 : Shape := ⟨2, ![1000000, 1]⟩
abbrev S1000000x97 : Shape := ⟨2, ![1000000, 97]⟩
abbrev S97x80 : Shape := ⟨2, ![97, 80]⟩
abbrev S1000000x80 : Shape := ⟨2, ![1000000, 80]⟩
abbrev S1x80 : Shape := ⟨2, ![1, 80]⟩
abbrev S_ : Shape := ⟨0, ![]⟩
abbrev S80x64 : Shape := ⟨2, ![80, 64]⟩
abbrev S1000000x64 : Shape := ⟨2, ![1000000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000x32, .f32⟩
  | .hbm, ⟨2, _⟩ => ⟨S1000000x16, .f32⟩
  | .hbm, ⟨3, _⟩ => ⟨S1000000x32, .f32⟩
  | .hbm, ⟨4, _⟩ => ⟨S1000000, .f32⟩
  | .hbm, ⟨5, _⟩ => ⟨S80x97, .f32⟩
  | .hbm, ⟨6, _⟩ => ⟨S80, .f32⟩
  | .hbm, ⟨7, _⟩ => ⟨S64x80, .f32⟩
  | .hbm, ⟨8, _⟩ => ⟨S64, .f32⟩
  | .hbm, ⟨9, _⟩ => ⟨S1000000x1, .f32⟩
  | .hbm, ⟨10, _⟩ => ⟨S1000000x97, .f32⟩
  | .hbm, ⟨11, _⟩ => ⟨S97x80, .f32⟩
  | .hbm, ⟨12, _⟩ => ⟨S1000000x80, .f32⟩
  | .hbm, ⟨13, _⟩ => ⟨S1x80, .f32⟩
  | .hbm, ⟨14, _⟩ => ⟨S1000000x80, .f32⟩
  | .hbm, ⟨15, _⟩ => ⟨S1000000x80, .f32⟩
  | .hbm, ⟨16, _⟩ => ⟨S_, .f32⟩
  | .hbm, ⟨17, _⟩ => ⟨S1000000x80, .f32⟩
  | .hbm, ⟨18, _⟩ => ⟨S1000000x80, .f32⟩
  | .hbm, ⟨19, _⟩ => ⟨S80x64, .f32⟩
  | .hbm, ⟨20, _⟩ => ⟨S1000000x64, .f32⟩
  | .hbm, ⟨21, _⟩ => ⟨S1x64, .f32⟩
  | .hbm, ⟨22, _⟩ => ⟨S1000000x64, .f32⟩
  | .hbm, ⟨23, _⟩ => ⟨S1000000x64, .f32⟩
  | .hbm, ⟨24, _⟩ => ⟨S1000000x64, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  concatenates_S1000000x16_S1000000x32_S1000000x16_S1000000x32_S1000000x1_S1000000x97_d1 : Shape.Concatenates [S1000000x16, S1000000x32, S1000000x16, S1000000x32, S1000000x1] S1000000x97 1
  transposes_S80x97_S97x80_1_0 : S80x97.Transposes [1, 0] S97x80
  bcast_S80_S1x80_1 : S80.BroadcastsInDim S1x80 (![1] : Fin 1 → Fin S1x80.rank)
  bcast_S1x80_S1000000x80_0_1 : S1x80.BroadcastsInDim S1000000x80 (![0, 1] : Fin 2 → Fin S1000000x80.rank)
  bcast_S_S1000000x80 : S_.BroadcastsInDim S1000000x80 (![] : Fin 0 → Fin S1000000x80.rank)
  transposes_S64x80_S80x64_1_0 : S64x80.Transposes [1, 0] S80x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  dot_S1000000x97_S97x80_S1000000x80_1_0_0_1_n_n_wf : DotDims.WF S1000000x97 S97x80 S1000000x80 [1] [0] [0] [1] [] []
  dot_S1000000x80_S80x64_S1000000x64_1_0_0_1_n_n_wf : DotDims.WF S1000000x80 S80x64 S1000000x64 [1] [0] [0] [1] [] []

variable [Facts₀]

def dot_S1000000x97_S97x80_S1000000x80_1_0_0_1_n_n : DotDims S1000000x97 S97x80 S1000000x80 where
  lhsContracting := [1]
  rhsContracting := [0]
  lhsNonContracting := [0]
  rhsNonContracting := [1]
  lhsBatch := []
  rhsBatch := []
  wf := dot_S1000000x97_S97x80_S1000000x80_1_0_0_1_n_n_wf
def dot_S1000000x80_S80x64_S1000000x64_1_0_0_1_n_n : DotDims S1000000x80 S80x64 S1000000x64 where
  lhsContracting := [1]
  rhsContracting := [0]
  lhsNonContracting := [0]
  rhsNonContracting := [1]
  lhsBatch := []
  rhsBatch := []
  wf := dot_S1000000x80_S80x64_S1000000x64_1_0_0_1_n_n_wf

class Facts : Prop extends Facts₀ where

variable [Facts]
-- ==== Proof.LibJoinFive.lean ====
/-
  Five matrices of one height set side by side, read at an index.

  Row `r` of the joined matrix is the five rows `r` laid end to end: the entry in column `l` comes from the piece whose
  span of columns holds `l`, read at `l` less the widths of the pieces before it.
-/
import Idealize.ShloMosaic.Lib.Pipeline.Value
import Idealize.ShloMosaic.Lib.ValueIdx

noncomputable section

namespace Cert.JoinFive

open Idealize.ShloMosaic Idealize.ShloMosaic.ValueIdx

variable {α : Type}

/-- Five finite sequences laid end to end, read at a position `l` of the joined one: the sequence whose span holds `l`,
    at `l` less the lengths before it. -/
def join5 {n₀ n₁ n₂ n₃ n₄ N : Nat} (hN : N = n₀ + n₁ + n₂ + n₃ + n₄) (a₀ : Fin n₀ → α) (a₁ : Fin n₁ → α)
    (a₂ : Fin n₂ → α) (a₃ : Fin n₃ → α) (a₄ : Fin n₄ → α) (l : Fin N) : α :=
  if h₀ : l.val < n₀ then a₀ ⟨l.val, h₀⟩
  else if h₁ : l.val < n₀ + n₁ then a₁ ⟨l.val - n₀, by omega⟩
  else if h₂ : l.val < n₀ + n₁ + n₂ then a₂ ⟨l.val - (n₀ + n₁), by omega⟩
  else if h₃ : l.val < n₀ + n₁ + n₂ + n₃ then a₃ ⟨l.val - (n₀ + n₁ + n₂), by omega⟩
  else a₄ ⟨l.val - (n₀ + n₁ + n₂ + n₃), by have := l.isLt; omega⟩

/-- The joined sequence depends on the five sequences only through their values. -/
theorem join5_congr {n₀ n₁ n₂ n₃ n₄ N : Nat} (hN : N = n₀ + n₁ + n₂ + n₃ + n₄) {a₀ b₀ : Fin n₀ → α} {a₁ b₁ : Fin n₁ → α}
    {a₂ b₂ : Fin n₂ → α} {a₃ b₃ : Fin n₃ → α} {a₄ b₄ : Fin n₄ → α} (e₀ : ∀ i, a₀ i = b₀ i) (e₁ : ∀ i, a₁ i = b₁ i)
    (e₂ : ∀ i, a₂ i = b₂ i) (e₃ : ∀ i, a₃ i = b₃ i) (e₄ : ∀ i, a₄ i = b₄ i) (l : Fin N) :
    join5 hN a₀ a₁ a₂ a₃ a₄ l = join5 hN b₀ b₁ b₂ b₃ b₄ l := by
  rw [funext e₀, funext e₁, funext e₂, funext e₃, funext e₄]

/-- Five matrices of `B` rows side by side, read at row `r` and column `l`: the five rows `r` laid end to end, at `l`. -/
theorem concat5_cols_apply {B n₀ n₁ n₂ n₃ n₄ N : Nat}
    (x₀ : (⟨2, ![B, n₀]⟩ : Shape).Idx → α) (x₁ : (⟨2, ![B, n₁]⟩ : Shape).Idx → α) (x₂ : (⟨2, ![B, n₂]⟩ : Shape).Idx → α)
    (x₃ : (⟨2, ![B, n₃]⟩ : Shape).Idx → α) (x₄ : (⟨2, ![B, n₄]⟩ : Shape).Idx → α)
    (h : Shape.Concatenates [(⟨2, ![B, n₀]⟩ : Shape), ⟨2, ![B, n₁]⟩, ⟨2, ![B, n₂]⟩, ⟨2, ![B, n₃]⟩, ⟨2, ![B, n₄]⟩] ⟨2, ![B, N]⟩ 1)
    (hN : N = n₀ + n₁ + n₂ + n₃ + n₄) (r : Fin B) (l : Fin N) :
    concatenate (⟨2, ![B, N]⟩ : Shape) 1
        [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l)
      = join5 hN (fun a => x₀ (ix2 r a)) (fun a => x₁ (ix2 r a)) (fun a => x₂ (ix2 r a)) (fun a => x₃ (ix2 r a))
          (fun a => x₄ (ix2 r a)) l := by
  have hoff : ∀ {n : Nat} (k : Fin n) (d : Fin 2), d.cast rfl ≠ (1 : Fin 2) →
      ((ix2 r k : (⟨2, ![B, n]⟩ : Shape).Idx) d).val = ((ix2 r l : (⟨2, ![B, N]⟩ : Shape).Idx) (d.cast rfl)).val :=
    fun k d hd => match d, hd with
      | ⟨0, _⟩, _ => rfl
      | ⟨1, _⟩, hd => absurd rfl hd
  unfold join5
  split_ifs with h₀ h₁ h₂ h₃
  · exact concatenate_apply_piece 1 [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l) 0 (by show 0 < 5; omega) _ x₀ rfl rfl 0 (by simp) (ix2 r ⟨l.val, h₀⟩)
      (hoff _) (by show 0 + l.val = l.val; omega)
  · exact concatenate_apply_piece 1 [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l) 1 (by show 1 < 5; omega) _ x₁ rfl rfl n₀ (by simp)
      (ix2 r ⟨l.val - n₀, by omega⟩) (hoff _) (by show n₀ + (l.val - n₀) = l.val; omega)
  · exact concatenate_apply_piece 1 [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l) 2 (by show 2 < 5; omega) _ x₂ rfl rfl (n₀ + n₁) (by simp)
      (ix2 r ⟨l.val - (n₀ + n₁), by omega⟩) (hoff _) (by show n₀ + n₁ + (l.val - (n₀ + n₁)) = l.val; omega)
  · exact concatenate_apply_piece 1 [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l) 3 (by show 3 < 5; omega) _ x₃ rfl rfl (n₀ + n₁ + n₂) (by simp; omega)
      (ix2 r ⟨l.val - (n₀ + n₁ + n₂), by omega⟩) (hoff _) (by show n₀ + n₁ + n₂ + (l.val - (n₀ + n₁ + n₂)) = l.val; omega)
  · exact concatenate_apply_piece 1 [⟨⟨2, ![B, n₀]⟩, x₀⟩, ⟨⟨2, ![B, n₁]⟩, x₁⟩, ⟨⟨2, ![B, n₂]⟩, x₂⟩, ⟨⟨2, ![B, n₃]⟩, x₃⟩, ⟨⟨2, ![B, n₄]⟩, x₄⟩] h (ix2 r l) 4 (by show 4 < 5; omega) _ x₄ rfl rfl (n₀ + n₁ + n₂ + n₃) (by simp; omega)
      (ix2 r ⟨l.val - (n₀ + n₁ + n₂ + n₃), by have := l.isLt; omega⟩) (hoff _)
      (by show n₀ + n₁ + n₂ + n₃ + (l.val - (n₀ + n₁ + n₂ + n₃)) = l.val; omega)

end Cert.JoinFive

end
-- ==== Proof.Spec.lean ====
/-
  The edge network as ONE function of its nine argument arrays.

  Edge `r`'s input row is its five pieces laid end to end — 16 destination features, 32 destination hidden values,
  16 source features, 32 source hidden values and the edge's own scalar: 97 columns. The row goes through a linear map
  to 80 values, each with a bias added and then cut off below at zero, and those through a linear map to 64 values,
  each with a bias added and then passed through tanh. Both linear maps are plain finite sums of products over the
  extended reals, so the order and grouping of the products plays no part.
-/
import Idealize.ShloMosaic.PureOps.Ideal
import Idealize.ShloMosaic.Lib.ValueIdx
import proofs.«107543_j49349174231510_2_alg».proof.Proof.LibJoinFive

noncomputable section

namespace Cert.EdgeMlp

open Idealize.ShloMosaic Idealize.ShloMosaic.ValueIdx Cert.JoinFive

/-- The level the hidden values are cut off at: the all-zero word read as a float. -/
abbrev cutoff : EReal := Ideal.ofBits .f32 0x00000000#32

/-- The two layers applied to one input row `x`, read at output column `q`: weights `w₁ k l` (hidden unit `k`, input
    column `l`) and `w₂ q k`, biases `b₁ k` and `b₂ q`. -/
def mlp (x : Fin 97 → EReal) (w₁ : Fin 80 → Fin 97 → EReal) (b₁ : Fin 80 → EReal) (w₂ : Fin 64 → Fin 80 → EReal)
    (b₂ : Fin 64 → EReal) (q : Fin 64) : EReal :=
  Ideal.tanh (∑ k : Fin 80, max (∑ l : Fin 97, x l * w₁ k l + b₁ k) cutoff * w₂ q k + b₂ q)

/-- The two layers depend on the row, the weights and the biases only through their values. -/
theorem mlp_congr {x x' : Fin 97 → EReal} {w₁ w₁' : Fin 80 → Fin 97 → EReal} {b₁ b₁' : Fin 80 → EReal}
    {w₂ w₂' : Fin 64 → Fin 80 → EReal} {b₂ b₂' : Fin 64 → EReal} (ex : ∀ l, x l = x' l) (e₁ : ∀ k l, w₁ k l = w₁' k l)
    (eb₁ : ∀ k, b₁ k = b₁' k) (e₂ : ∀ q k, w₂ q k = w₂' q k) (eb₂ : ∀ q, b₂ q = b₂' q) (q : Fin 64) :
    mlp x w₁ b₁ w₂ b₂ q = mlp x' w₁' b₁' w₂' b₂' q := by
  have hx : x = x' := funext ex
  have h₁ : w₁ = w₁' := funext fun k => funext (e₁ k)
  have hb₁ : b₁ = b₁' := funext eb₁
  have h₂ : w₂ = w₂' := funext fun q => funext (e₂ q)
  have hb₂ : b₂ = b₂' := funext eb₂
  rw [hx, h₁, hb₁, h₂, hb₂]

/-- The 97 columns are the five pieces' widths. -/
theorem width : 97 = 16 + 32 + 16 + 32 + 1 := rfl

/-- Edge `r`'s input row: its rows of the four feature matrices and its scalar, laid end to end. -/
def featRow (A₀ : (⟨2, ![1000000, 16]⟩ : Shape).Idx → EReal) (A₁ : (⟨2, ![1000000, 32]⟩ : Shape).Idx → EReal)
    (A₂ : (⟨2, ![1000000, 16]⟩ : Shape).Idx → EReal) (A₃ : (⟨2, ![1000000, 32]⟩ : Shape).Idx → EReal)
    (A₄ : (⟨1, ![1000000]⟩ : Shape).Idx → EReal) (r : Fin 1000000) : Fin 97 → EReal :=
  join5 width (fun a => A₀ (ix2 r a)) (fun a => A₁ (ix2 r a)) (fun a => A₂ (ix2 r a)) (fun a => A₃ (ix2 r a))
    (fun _ : Fin 1 => A₄ (ix1 r))

/-- The network's output for edge `r` at column `q`: the weight matrices are stored with one row per output unit. -/
def outAt (A₀ : (⟨2, ![1000000, 16]⟩ : Shape).Idx → EReal) (A₁ : (⟨2, ![1000000, 32]⟩ : Shape).Idx → EReal)
    (A₂ : (⟨2, ![1000000, 16]⟩ : Shape).Idx → EReal) (A₃ : (⟨2, ![1000000, 32]⟩ : Shape).Idx → EReal)
    (A₄ : (⟨1, ![1000000]⟩ : Shape).Idx → EReal) (A₅ : (⟨2, ![80, 97]⟩ : Shape).Idx → EReal)
    (A₆ : (⟨1, ![80]⟩ : Shape).Idx → EReal) (A₇ : (⟨2, ![64, 80]⟩ : Shape).Idx → EReal)
    (A₈ : (⟨1, ![64]⟩ : Shape).Idx → EReal) (r : Fin 1000000) (q : Fin 64) : EReal :=
  mlp (featRow A₀ A₁ A₂ A₃ A₄ r) (fun k l => A₅ (ix2 k l)) (fun k => A₆ (ix1 k)) (fun q k => A₇ (ix2 q k))
    (fun q => A₈ (ix1 q)) q

/-- The whole output array, index by index. -/
def G (A₀ : (⟨2, ![1000000, 16]⟩ : Shape).Idx → EReal) (A₁ : (⟨2, ![1000000, 32]⟩ : Shape).Idx → EReal)
    (A₂ : (⟨2, ![1000000, 16]⟩ : Shape).Idx → EReal) (A₃ : (⟨2, ![1000000, 32]⟩ : Shape).Idx → EReal)
    (A₄ : (⟨1, ![1000000]⟩ : Shape).Idx → EReal) (A₅ : (⟨2, ![80, 97]⟩ : Shape).Idx → EReal)
    (A₆ : (⟨1, ![80]⟩ : Shape).Idx → EReal) (A₇ : (⟨2, ![64, 80]⟩ : Shape).Idx → EReal)
    (A₈ : (⟨1, ![64]⟩ : Shape).Idx → EReal) : (⟨2, ![1000000, 64]⟩ : Shape).Idx → EReal :=
  fun i => outAt A₀ A₁ A₂ A₃ A₄ A₅ A₆ A₇ A₈ ⟨(i 0).val, idx2_lt0 i⟩ ⟨(i 1).val, idx2_lt1 i⟩

theorem G_ix2 (A₀ : (⟨2, ![1000000, 16]⟩ : Shape).Idx → EReal) (A₁ : (⟨2, ![1000000, 32]⟩ : Shape).Idx → EReal)
    (A₂ : (⟨2, ![1000000, 16]⟩ : Shape).Idx → EReal) (A₃ : (⟨2, ![1000000, 32]⟩ : Shape).Idx → EReal)
    (A₄ : (⟨1, ![1000000]⟩ : Shape).Idx → EReal) (A₅ : (⟨2, ![80, 97]⟩ : Shape).Idx → EReal)
    (A₆ : (⟨1, ![80]⟩ : Shape).Idx → EReal) (A₇ : (⟨2, ![64, 80]⟩ : Shape).Idx → EReal)
    (A₈ : (⟨1, ![64]⟩ : Shape).Idx → EReal) (r : Fin 1000000) (q : Fin 64) :
    G A₀ A₁ A₂ A₃ A₄ A₅ A₆ A₇ A₈ (ix2 r q) = outAt A₀ A₁ A₂ A₃ A₄ A₅ A₆ A₇ A₈ r q := rfl

end Cert.EdgeMlp

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.BodyValue.lean ====
/-
  What the kernel body computes for one block of 5000 edges, read at an index.

  The body joins its five input blocks into a 5000 × 97 matrix, multiplies it by the 97 × 80 weight block into a zero
  accumulator, adds the 80 biases down the rows, takes the maximum with zero, multiplies by the 80 × 64 weight block
  into a zero accumulator, adds the 64 biases and applies tanh; the narrowings to 16-bit floats in between change
  nothing over the extended reals. At (p, q) that is the network's two layers applied to row p of the joined block,
  with the weight blocks read transposed.
-/
import proofs.«107543_j49349174231510_2_alg».proof.Proof.Gen.KernelIdeal.Skeleton
import proofs.«107543_j49349174231510_2_alg».proof.Proof.Spec
import proofs.«107543_j49349174231510_2_alg».proof.Proof.LibPlainProduct
import proofs.«107543_j49349174231510_2_alg».proof.Proof.LibRowVector
import Idealize.ShloMosaic.Lib.Pipeline.Value
import Idealize.ShloMosaic.Lib.ValueIdx

noncomputable section

namespace Cert.EdgeMlp.Body

open Cert.KernelIdeal Cert.KernelIdeal.Gen Idealize.ShloMosaic Idealize.ShloMosaic.ValueIdx
open Cert.JoinFive Cert.EdgeMlp

/-- The two matrix products are plain ones: rows by columns. -/
theorem dims1 : dot_S5000x97_S97x80_S5000x80_1_0_0_1_n_n = DotDims.plain 5000 97 80 := rfl
theorem dims2 : dot_S5000x80_S80x64_S5000x64_1_0_0_1_n_n = DotDims.plain 5000 80 64 := rfl

/-- The hidden layer at (p, k): row p against column k of the weight block, plus bias k, cut off at zero. -/
theorem hidden_apply (X : FVec Ideal S5000x97 .bf16) (Wt : FVec Ideal S97x80 .bf16) (b : FVec Ideal S80 .f32)
    (h1 : S80.ShapeCasts S1x80) (hb : S1x80.Broadcasts S5000x80) (p : Fin 5000) (k : Fin 80) :
    maximumf (addf (matmul dot_S5000x97_S97x80_S5000x80_1_0_0_1_n_n none X Wt (constant (F := Ideal) S5000x80 .f32 0x00000000#32))
        (broadcastTo S5000x80 (shapeCast S1x80 b h1) hb))
      (broadcast S5000x80 (Scalar.ofBits .f32 0x00000000#32 : Ideal .f32)) (ix2 p k)
      = max (∑ l : Fin 97, X (ix2 p l) * Wt (ix2 l k) + b (ix1 k)) cutoff := by
  rw [maximumf_apply, addf_apply, Cert.PlainProduct.matmul_plain_apply _ dims1 none X Wt p k,
    Cert.RowVector.rowBroadcast_apply b h1 hb p k]
  rfl

/-- The output layer at (p, q): row p of the hidden values against column q of the weight block, plus bias q, through tanh. -/
theorem out_layer_apply (H : FVec Ideal S5000x80 .bf16) (Wt : FVec Ideal S80x64 .bf16) (b : FVec Ideal S64 .f32)
    (h1 : S64.ShapeCasts S1x64) (hb : S1x64.Broadcasts S5000x64) (p : Fin 5000) (q : Fin 64) :
    tanh (addf (matmul dot_S5000x80_S80x64_S5000x64_1_0_0_1_n_n none H Wt (constant (F := Ideal) S5000x64 .f32 0x00000000#32))
        (broadcastTo S5000x64 (shapeCast S1x64 b h1) hb)) (ix2 p q)
      = Ideal.tanh (∑ k : Fin 80, H (ix2 p k) * Wt (ix2 k q) + b (ix1 q)) := by
  show Ideal.tanh (addf (F := Ideal) _ _ (ix2 p q)) = _
  rw [addf_apply, Cert.PlainProduct.matmul_plain_apply _ dims2 none H Wt p q,
    Cert.RowVector.rowBroadcast_apply b h1 hb p q]

/-- THE BODY'S RESULT AT (p, q): the two layers applied to row p of the five joined blocks, the weight blocks read
    with the input coordinate first. -/
theorem pay_apply (v0 : Vec Ideal S5000x16 .f32) (v1 : Vec Ideal S5000x32 .f32) (v2 : Vec Ideal S5000x16 .f32)
    (v3 : Vec Ideal S5000x32 .f32) (v4 : Vec Ideal S5000x1 .f32) (v8 : Vec Ideal S97x80 .bf16) (v11 : Vec Ideal S80 .f32)
    (v18 : Vec Ideal S80x64 .bf16) (v21 : Vec Ideal S64 .f32) (p : Fin 5000) (q : Fin 64) :
    k0_pay1 (F := Ideal) v0 v1 v2 v3 v4 v8 v11 v18 v21 (ix2 p q)
      = mlp (join5 width (fun a => v0 (ix2 p a)) (fun a => v1 (ix2 p a)) (fun a => v2 (ix2 p a)) (fun a => v3 (ix2 p a))
            (fun a => v4 (ix2 p a)))
          (fun k l => v8 (ix2 l k)) (fun k => v11 (ix1 k)) (fun q k => v18 (ix2 k q)) (fun q => v21 (ix1 q)) q := by
  have hrow : ∀ (hc : S5000x1.ShapeCasts S5000x1)
      (hj : Shape.Concatenates [S5000x16, S5000x32, S5000x16, S5000x32, S5000x1] S5000x97 1) (l : Fin 97),
      concatenate S5000x97 1 [⟨S5000x16, v0⟩, ⟨S5000x32, v1⟩, ⟨S5000x16, v2⟩, ⟨S5000x32, v3⟩, ⟨S5000x1, shapeCast S5000x1 v4 hc⟩]
          hj (ix2 p l)
        = join5 width (fun a => v0 (ix2 p a)) (fun a => v1 (ix2 p a)) (fun a => v2 (ix2 p a)) (fun a => v3 (ix2 p a))
            (fun a => v4 (ix2 p a)) l := fun hc hj l => by
    refine (concat5_cols_apply v0 v1 v2 v3 (shapeCast S5000x1 v4 hc) hj width p l).trans ?_
    rw [shapeCast_self]
  unfold k0_pay1
  refine (out_layer_apply _ _ v21 _ _ p q).trans ?_
  unfold mlp
  refine congrArg (fun s => Ideal.tanh (s + v21 (ix1 q))) (Finset.sum_congr rfl fun k _ => ?_)
  refine congrArg₂ (· * ·) ?_ (congrFun (shapeCast_self v18 _) (ix2 k q))
  show maximumf (F := Ideal) _ _ (ix2 p k) = _
  refine (hidden_apply _ _ v11 _ _ p k).trans ?_
  refine congrArg (fun s => max (s + v11 (ix1 k)) cutoff) (Finset.sum_congr rfl fun l _ => ?_)
  exact congrArg₂ (· * ·) (hrow shapeCasts_S5000x1_S5000x1 concatenates_S5000x16_S5000x32_S5000x16_S5000x32_S5000x1_S5000x97_d1 l) (congrFun (shapeCast_self v8 _) (ix2 l k))

end Cert.EdgeMlp.Body

end
-- ==== Proof.KernelBlocks.lean ====
/-
  The blocks the kernel body is run on, read off the argument arrays.

  Before the launch the host reshapes the edge scalars into a column and transposes the two weight matrices. Grid point
  t then takes rows 5000 t … 5000 t + 4999 of the four feature arrays and of the scalar column, and the whole of the two
  transposed weight matrices and of the two bias vectors. So row p of its joined block is edge 5000 t + p's input row,
  and the body's two layers applied to it are the specification at that edge.
-/
import proofs.«107543_j49349174231510_2_alg».proof.Proof.Gen.KernelIdeal.Value
import proofs.«107543_j49349174231510_2_alg».proof.Proof.BodyValue
import Idealize.ShloMosaic.Lib.Pipeline.Value
import Idealize.ShloMosaic.Lib.StableHlo.Run
import Idealize.ShloMosaic.Lib.ValueIdx
import Idealize.ShloMosaic.Lib.Tactic

noncomputable section

namespace Cert.EdgeMlp.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.JoinFive Cert.EdgeMlp

variable (m : (ℓ : Loc nD τ sig) → Buf (Elt Ideal) ℓ) (ρ : Dev nD → PrngReg)

/-! ## The arrays the region finds: the edge scalars as a column, the two weight matrices transposed -/

theorem V_edge (c : Dev nD) : (V m c main_v0 : S1000000x1.Idx → EReal)
    = shapeCast S1000000x1 (m ((c : Thread nD τ).loc main_arg4)) shapeCasts_S1000000_S1000000x1 := by
  dsimp only [Gen.V, Gen.hostOps0]
  after_results
  rfl

theorem V_w1 (c : Dev nD) : (V m c main_v2 : S97x80.Idx → EReal)
    = truncf (F := Ideal) .bf16 (transpose S97x80 [1, 0] (m ((c : Thread nD τ).loc main_arg5)) transposes_S80x97_S97x80_1_0) bitsLt_bf16_f32 := by
  dsimp only [Gen.V, Gen.hostOps0]
  after_results

theorem V_w2 (c : Dev nD) : (V m c main_v4 : S80x64.Idx → EReal)
    = truncf (F := Ideal) .bf16 (transpose S80x64 [1, 0] (m ((c : Thread nD τ).loc main_arg7)) transposes_S64x80_S80x64_1_0) bitsLt_bf16_f32 := by
  dsimp only [Gen.V, Gen.hostOps0]
  after_results

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- Point `t` takes block `t` of rows of the five edge arrays and of the output, and the whole of each weight and bias array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem rowOf_lt (t : Fin cfg0.N) (p : Fin 5000) : t.val * 5000 + p.val < 1000000 := by
  have h := t.isLt
  have hN : cfg0.N = 200 := N_0
  have hp := p.isLt
  omega

/-- Row `p` of block `t` is edge `5000 t + p`. -/
def rowOf (t : Fin cfg0.N) (p : Fin 5000) : Fin 1000000 := ⟨t.val * 5000 + p.val, rowOf_lt t p⟩

/-! ## Each input block at a point, read off the argument arrays -/

theorem blk0_apply (c : Dev nD) (t : Fin cfg0.N) (p : Fin 5000) (a : Fin 16) :
    (iblk m c 0 t : Vec Ideal S5000x16 .f32) (ix2 p a)
      = (m ((c : Thread nD τ).loc main_arg0) : S1000000x16.Idx → EReal) (ix2 (rowOf t p) a) := by
  obtain ⟨e00, e01, e10, e11, e20, e21, e30, e31, -⟩ := idx_facts t
  unfold iblk
  rw [View.read_apply]
  show V m c main_arg0 _ = _
  rw [V_main_arg0]
  congr 1
  funext d
  apply Fin.ext
  match d with
  | ⟨0, _⟩ => show win0_0.index t (0 : Fin 2) * 5000 + 1 * p.val = t.val * 5000 + p.val; rw [e00]; omega
  | ⟨1, _⟩ => show win0_0.index t (1 : Fin 2) * 16 + 1 * a.val = a.val; rw [e01]; omega

theorem blk1_apply (c : Dev nD) (t : Fin cfg0.N) (p : Fin 5000) (a : Fin 32) :
    (iblk m c 1 t : Vec Ideal S5000x32 .f32) (ix2 p a)
      = (m ((c : Thread nD τ).loc main_arg1) : S1000000x32.Idx → EReal) (ix2 (rowOf t p) a) := by
  obtain ⟨e00, e01, e10, e11, e20, e21, e30, e31, -⟩ := idx_facts t
  unfold iblk
  rw [View.read_apply]
  show V m c main_arg1 _ = _
  rw [V_main_arg1]
  congr 1
  funext d
  apply Fin.ext
  match d with
  | ⟨0, _⟩ => show win0_1.index t (0 : Fin 2) * 5000 + 1 * p.val = t.val * 5000 + p.val; rw [e10]; omega
  | ⟨1, _⟩ => show win0_1.index t (1 : Fin 2) * 32 + 1 * a.val = a.val; rw [e11]; omega

theorem blk2_apply (c : Dev nD) (t : Fin cfg0.N) (p : Fin 5000) (a : Fin 16) :
    (iblk m c 2 t : Vec Ideal S5000x16 .f32) (ix2 p a)
      = (m ((c : Thread nD τ).loc main_arg2) : S1000000x16.Idx → EReal) (ix2 (rowOf t p) a) := by
  obtain ⟨e00, e01, e10, e11, e20, e21, e30, e31, -⟩ := idx_facts t
  unfold iblk
  rw [View.read_apply]
  show V m c main_arg2 _ = _
  rw [V_main_arg2]
  congr 1
  funext d
  apply Fin.ext
  match d with
  | ⟨0, _⟩ => show win0_2.index t (0 : Fin 2) * 5000 + 1 * p.val = t.val * 5000 + p.val; rw [e20]; omega
  | ⟨1, _⟩ => show win0_2.index t (1 : Fin 2) * 16 + 1 * a.val = a.val; rw [e21]; omega

theorem blk3_apply (c : Dev nD) (t : Fin cfg0.N) (p : Fin 5000) (a : Fin 32) :
    (iblk m c 3 t : Vec Ideal S5000x32 .f32) (ix2 p a)
      = (m ((c : Thread nD τ).loc main_arg3) : S1000000x32.Idx → EReal) (ix2 (rowOf t p) a) := by
  obtain ⟨e00, e01, e10, e11, e20, e21, e30, e31, -⟩ := idx_facts t
  unfold iblk
  rw [View.read_apply]
  show V m c main_arg3 _ = _
  rw [V_main_arg3]
  congr 1
  funext d
  apply Fin.ext
  match d with
  | ⟨0, _⟩ => show win0_3.index t (0 : Fin 2) * 5000 + 1 * p.val = t.val * 5000 + p.val; rw [e30]; omega
  | ⟨1, _⟩ => show win0_3.index t (1 : Fin 2) * 32 + 1 * a.val = a.val; rw [e31]; omega

/-- The fifth block is a column of 5000 edge scalars: the array it is cut from is the scalars reshaped to one column. -/
theorem blk4_apply (c : Dev nD) (t : Fin cfg0.N) (p : Fin 5000) (a : Fin 1) :
    (iblk m c 4 t : Vec Ideal S5000x1 .f32) (ix2 p a)
      = (m ((c : Thread nD τ).loc main_arg4) : S1000000.Idx → EReal) (ix1 (rowOf t p)) := by
  obtain ⟨-, -, -, -, -, -, -, -, e40, e41, -⟩ := idx_facts t
  have ha : a.val = 0 := by have := a.isLt; omega
  unfold iblk
  rw [View.read_apply]
  show (V m c main_v0 : S1000000x1.Idx → EReal) _ = _
  rw [V_edge]
  refine shapeCast_apply _ _ _ (ix1 (rowOf t p)) ?_
  rw [Shape.rowMajor_val_two, Shape.rowMajor_val_one]
  show t.val * 5000 + p.val = (win0_4.index t (0 : Fin 2) * 5000 + 1 * p.val) * 1 + (win0_4.index t (1 : Fin 2) * 1 + 1 * a.val)
  rw [e40, e41, ha]
  omega

/-- The first weight block is the whole first weight matrix, transposed: input coordinate first. -/
theorem blk5_apply (c : Dev nD) (t : Fin cfg0.N) (l : Fin 97) (k : Fin 80) :
    (iblk m c 5 t : Vec Ideal S97x80 .bf16) (ix2 l k)
      = (m ((c : Thread nD τ).loc main_arg5) : S80x97.Idx → EReal) (ix2 k l) := by
  obtain ⟨-, -, -, -, -, -, -, -, -, -, e50, e51, -⟩ := idx_facts t
  unfold iblk
  rw [View.read_apply]
  show (V m c main_v2 : S97x80.Idx → EReal) _ = _
  rw [V_w1]
  show transpose S97x80 [1, 0] (m ((c : Thread nD τ).loc main_arg5)) transposes_S80x97_S97x80_1_0 _ = _
  refine transpose_apply [1, 0] _ _ _ (ix2 k l) fun b => ?_
  match b with
  | ⟨0, _⟩ => show l.val = win0_5.index t (0 : Fin 2) * 97 + 1 * l.val; rw [e50]; omega
  | ⟨1, _⟩ => show k.val = win0_5.index t (1 : Fin 2) * 80 + 1 * k.val; rw [e51]; omega

theorem blk6_apply (c : Dev nD) (t : Fin cfg0.N) (k : Fin 80) :
    (iblk m c 6 t : Vec Ideal S80 .f32) (ix1 k) = (m ((c : Thread nD τ).loc main_arg6) : S80.Idx → EReal) (ix1 k) := by
  obtain ⟨-, -, -, -, -, -, -, -, -, -, -, -, e60, -⟩ := idx_facts t
  unfold iblk
  rw [View.read_apply]
  show V m c main_arg6 _ = _
  rw [V_main_arg6]
  congr 1
  funext d
  apply Fin.ext
  match d with
  | ⟨0, _⟩ => show win0_6.index t (0 : Fin 1) * 80 + 1 * k.val = k.val; rw [e60]; omega

/-- The second weight block is the whole second weight matrix, transposed. -/
theorem blk7_apply (c : Dev nD) (t : Fin cfg0.N) (k : Fin 80) (q : Fin 64) :
    (iblk m c 7 t : Vec Ideal S80x64 .bf16) (ix2 k q)
      = (m ((c : Thread nD τ).loc main_arg7) : S64x80.Idx → EReal) (ix2 q k) := by
  obtain ⟨-, -, -, -, -, -, -, -, -, -, -, -, -, e70, e71, -⟩ := idx_facts t
  unfold iblk
  rw [View.read_apply]
  show (V m c main_v4 : S80x64.Idx → EReal) _ = _
  rw [V_w2]
  show transpose S80x64 [1, 0] (m ((c : Thread nD τ).loc main_arg7)) transposes_S64x80_S80x64_1_0 _ = _
  refine transpose_apply [1, 0] _ _ _ (ix2 q k) fun b => ?_
  match b with
  | ⟨0, _⟩ => show k.val = win0_7.index t (0 : Fin 2) * 80 + 1 * k.val; rw [e70]; omega
  | ⟨1, _⟩ => show q.val = win0_7.index t (1 : Fin 2) * 64 + 1 * q.val; rw [e71]; omega

theorem blk8_apply (c : Dev nD) (t : Fin cfg0.N) (q : Fin 64) :
    (iblk m c 8 t : Vec Ideal S64 .f32) (ix1 q) = (m ((c : Thread nD τ).loc main_arg8) : S64.Idx → EReal) (ix1 q) := by
  obtain ⟨-, -, -, -, -, -, -, -, -, -, -, -, -, -, -, e80, -⟩ := idx_facts t
  unfold iblk
  rw [View.read_apply]
  show V m c main_arg8 _ = _
  rw [V_main_arg8]
  congr 1
  funext d
  apply Fin.ext
  match d with
  | ⟨0, _⟩ => show win0_8.index t (0 : Fin 1) * 64 + 1 * q.val = q.val; rw [e80]; omega

/-! ## What a point writes back, the cover, the array after the run -/

/-- The body's result at an index of its block, the index's two coordinates taken apart. -/
theorem pay_at (v0 : Vec Ideal S5000x16 .f32) (v1 : Vec Ideal S5000x32 .f32) (v2 : Vec Ideal S5000x16 .f32)
    (v3 : Vec Ideal S5000x32 .f32) (v4 : Vec Ideal S5000x1 .f32) (v8 : Vec Ideal S97x80 .bf16) (v11 : Vec Ideal S80 .f32)
    (v18 : Vec Ideal S80x64 .bf16) (v21 : Vec Ideal S64 .f32) (j : S5000x64.Idx) (p : Fin 5000) (q : Fin 64)
    (hp : (j 0).val = p.val) (hq : (j 1).val = q.val) :
    k0_pay1 (F := Ideal) v0 v1 v2 v3 v4 v8 v11 v18 v21 j
      = mlp (join5 width (fun a => v0 (ix2 p a)) (fun a => v1 (ix2 p a)) (fun a => v2 (ix2 p a)) (fun a => v3 (ix2 p a))
            (fun a => v4 (ix2 p a)))
          (fun k l => v8 (ix2 l k)) (fun k => v11 (ix1 k)) (fun q k => v18 (ix2 k q)) (fun q => v21 (ix1 q)) q := by
  have hj : j = ix2 p q := funext fun d => Fin.ext (by match d with | ⟨0, _⟩ => exact hp | ⟨1, _⟩ => exact hq)
  rw [hj]
  exact Cert.EdgeMlp.Body.pay_apply v0 v1 v2 v3 v4 v8 v11 v18 v21 p q

/-- Row `p` of block `t` through the two layers is the specification at edge `5000 t + p`: the five row blocks are rows
    of the edge arrays, the weight blocks the weight matrices transposed, the bias blocks the biases. -/
theorem block_eq (c : Dev nD) (t : Fin cfg0.N) (p : Fin 5000) (q : Fin 64) :
    mlp (join5 width (fun a => (iblk m c 0 t : Vec Ideal S5000x16 .f32) (ix2 p a))
          (fun a => (iblk m c 1 t : Vec Ideal S5000x32 .f32) (ix2 p a))
          (fun a => (iblk m c 2 t : Vec Ideal S5000x16 .f32) (ix2 p a))
          (fun a => (iblk m c 3 t : Vec Ideal S5000x32 .f32) (ix2 p a))
          (fun a => (iblk m c 4 t : Vec Ideal S5000x1 .f32) (ix2 p a)))
        (fun k l => (iblk m c 5 t : Vec Ideal S97x80 .bf16) (ix2 l k)) (fun k => (iblk m c 6 t : Vec Ideal S80 .f32) (ix1 k))
        (fun q k => (iblk m c 7 t : Vec Ideal S80x64 .bf16) (ix2 k q)) (fun q => (iblk m c 8 t : Vec Ideal S64 .f32) (ix1 q)) q
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t p) q := by
  unfold outAt featRow
  exact mlp_congr
    (fun l => join5_congr width (blk0_apply m c t p) (blk1_apply m c t p) (blk2_apply m c t p) (blk3_apply m c t p)
      (blk4_apply m c t p) l)
    (fun k l => blk5_apply m c t l k) (fun k => blk6_apply m c t k) (fun q k => blk7_apply m c t k q)
    (fun q => blk8_apply m c t q) q

end Cert.EdgeMlp.Kernel

end
-- ==== Proof.KernelValue.lean ====
/-
  The kernel's output array after the run is the specification of its arguments.

  Grid point t writes back block t of the output: rows 5000 t … 5000 t + 4999, all 64 columns. What it writes is the body's
  result on the blocks it was given, which is the specification at those rows. The 200 blocks cover the
  output array — edge r is written by point r / 5000 — so the array ends holding the specification everywhere.
-/
import proofs.«107543_j49349174231510_2_alg».proof.Proof.KernelBlocks

noncomputable section

namespace Cert.EdgeMlp.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.JoinFive Cert.EdgeMlp

variable (m : (ℓ : Loc nD τ sig) → Buf (Elt Ideal) ℓ) (ρ : Dev nD → PrngReg)

/-- The specification at an index whose two coordinates are known. -/
theorem G_at (A₀ : S1000000x16.Idx → EReal) (A₁ : S1000000x32.Idx → EReal) (A₂ : S1000000x16.Idx → EReal)
    (A₃ : S1000000x32.Idx → EReal) (A₄ : S1000000.Idx → EReal) (A₅ : S80x97.Idx → EReal) (A₆ : S80.Idx → EReal)
    (A₇ : S64x80.Idx → EReal) (A₈ : S64.Idx → EReal) (i : S1000000x64.Idx) (r : Fin 1000000) (q : Fin 64)
    (hr : (i 0).val = r.val) (hq : (i 1).val = q.val) :
    G A₀ A₁ A₂ A₃ A₄ A₅ A₆ A₇ A₈ i = outAt A₀ A₁ A₂ A₃ A₄ A₅ A₆ A₇ A₈ r q := by
  have hi : i = ix2 r q := funext fun d => Fin.ext (by match d with | ⟨0, _⟩ => exact hr | ⟨1, _⟩ => exact hq)
  rw [hi]
  rfl

/-- WHAT POINT `t` WRITES BACK is block `t` of the specification of the argument arrays. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨-, -, -, -, -, -, -, -, -, -, -, -, -, -, -, -, e90, e91⟩ := idx_facts t
  rw [Cert.KernelIdeal.Value.flushed9]
  unfold out0_9
  rw [View.canon_unit_zero hz2]
  simp only [View.ld_unit_zero (S := S5000x16) hz2, View.ld_unit_zero (S := S5000x32) hz2, View.ld_unit_zero (S := S5000x1) hz2,
    View.ld_unit_zero (S := S97x80) hz2, View.ld_unit_zero (S := S80x64) hz2, View.ld_unit_zero (S := S80) hz1,
    View.ld_unit_zero (S := S64) hz1]
  funext y
  have hp : (y 0).val < 5000 := (y 0).isLt
  have hq : (y 1).val < 64 := (y 1).isLt
  refine (pay_at (iblk m c 0 t) (iblk m c 1 t) (iblk m c 2 t) (iblk m c 3 t) (iblk m c 4 t) (iblk m c 5 t) (iblk m c 6 t) (iblk m c 7 t) (iblk m c 8 t) ((win0 9).xinj (grid0.coords t) y) ⟨(y 0).val, hp⟩ ⟨(y 1).val, hq⟩ rfl rfl).trans ?_
  refine (block_eq m c t ⟨(y 0).val, hp⟩ ⟨(y 1).val, hq⟩).trans ?_
  rw [View.read_apply]
  refine (G_at _ _ _ _ _ _ _ _ _ _ (rowOf t ⟨(y 0).val, hp⟩) ⟨(y 1).val, hq⟩ ?_ ?_).symm
  · show win0_9.index t (0 : Fin 2) * 5000 + 1 * (y 0).val = t.val * 5000 + (y 0).val
    rw [e90]; omega
  · show win0_9.index t (1 : Fin 2) * 64 + 1 * (y 1).val = (y 1).val
    rw [e91]; omega

/-- An index of the output array lies in point `t`'s block iff each coordinate lies in the block's range on its axis. -/
theorem mem_blk (t : Fin cfg0.N) (i : S1000000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v5).slice (win0_9.rect t)).set ↔ _
  rw [View.set_slice_whole, Rect.mem_set_unit]
  exact Iff.rfl

/-- Every index of the output array is in some point's block: edge `r` is written by point `r / 5000`. -/
theorem cover (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 200 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, -, -, e90, e91⟩ := idx_facts t
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    rw [e90, ht]; omega
  | ⟨1, _⟩ =>
    show win0_9.index t (1 : Fin 2) * 64 ≤ (i 1).val ∧ (i 1).val < win0_9.index t (1 : Fin 2) * 64 + 64
    rw [e91]; omega

/-- THE OUTPUT ARRAY AFTER THE RUN is the specification of the argument arrays. -/
theorem final (c : Dev nD) : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.EdgeMlp.Kernel

end
-- ==== Proof.RefValue.lean ====
/-
  The reference program computes the specification.

  Read one operation at a time, the reference joins the five pieces into a 97-column matrix, multiplies it by the
  first weight matrix transposed, adds the first bias along every row, takes the maximum with zero, multiplies by the
  second weight matrix transposed, adds the second bias and applies tanh. At an index (r, q) this is the network's two
  layers applied to edge r's joined row, read at column q.
-/
import proofs.«107543_j49349174231510_2_alg».proof.Proof.Gen.ReferenceIdeal.Read
import proofs.«107543_j49349174231510_2_alg».proof.Proof.Spec

noncomputable section

namespace Cert.EdgeMlp.Ref

open Cert.ReferenceIdeal Cert.ReferenceIdeal.Read Idealize.ShloMosaic Idealize.ShloMosaic.ValueIdx
open Cert.JoinFive Cert.EdgeMlp

/-! ## The index maps of the two products and of the broadcasts, at an index built from coordinates -/

theorem lidx3 (r : Fin 1000000) (k : Fin 80) (l : Fin 97) : lidx_main_v3 (ix2 r k) l = ix2 r l :=
  funext fun a => Fin.ext (by match a with | ⟨0, _⟩ => rfl | ⟨1, _⟩ => rfl)

theorem ridx3 (r : Fin 1000000) (k : Fin 80) (l : Fin 97) : idx_main_v2 (ridx_main_v3 (ix2 r k) l) = ix2 k l :=
  funext fun a => Fin.ext (by match a with | ⟨0, _⟩ => rfl | ⟨1, _⟩ => rfl)

theorem bidx5 (r : Fin 1000000) (k : Fin 80) : idx_main_v4 (idx_main_v5 (ix2 r k)) = ix1 k :=
  funext fun a => Fin.ext (by match a with | ⟨0, _⟩ => rfl)

theorem lidx9 (r : Fin 1000000) (q : Fin 64) (k : Fin 80) : lidx_main_v9 (ix2 r q) k = ix2 r k :=
  funext fun a => Fin.ext (by match a with | ⟨0, _⟩ => rfl | ⟨1, _⟩ => rfl)

theorem ridx9 (r : Fin 1000000) (q : Fin 64) (k : Fin 80) : idx_main_v8 (ridx_main_v9 (ix2 r q) k) = ix2 q k :=
  funext fun a => Fin.ext (by match a with | ⟨0, _⟩ => rfl | ⟨1, _⟩ => rfl)

theorem bidx11 (r : Fin 1000000) (q : Fin 64) : idx_main_v10 (idx_main_v11 (ix2 r q)) = ix1 q :=
  funext fun a => Fin.ext (by match a with | ⟨0, _⟩ => rfl)

theorem cidx0 (r : Fin 1000000) (a : Fin 1) : idx_main_v0 (ix2 r a) = ix1 r :=
  funext fun d => Fin.ext (by match d with | ⟨0, _⟩ => rfl)

/-! ## The joined matrix, the hidden layer, the output -/

/-- Row `r` of the joined matrix is edge `r`'s input row: the fifth piece is the edge scalar as a one-column matrix. -/
theorem joined_apply (x0 : (⟨S1000000x16, .f32⟩ : BufTy).Contents (Elt Ideal)) (x1 : (⟨S1000000x32, .f32⟩ : BufTy).Contents (Elt Ideal))
    (x2 : (⟨S1000000x16, .f32⟩ : BufTy).Contents (Elt Ideal)) (x3 : (⟨S1000000x32, .f32⟩ : BufTy).Contents (Elt Ideal))
    (x4 : (⟨S1000000, .f32⟩ : BufTy).Contents (Elt Ideal)) (r : Fin 1000000) (l : Fin 97) :
    val_main_v1 (F := Ideal) x0 x1 x2 x3 x4 (ix2 r l) = featRow x0 x1 x2 x3 x4 r l := by
  unfold val_main_v1 featRow
  refine (concat5_cols_apply x0 x1 x2 x3 (val_main_v0 (F := Ideal) x4) _ width r l).trans ?_
  refine join5_congr width (fun _ => rfl) (fun _ => rfl) (fun _ => rfl) (fun _ => rfl) (fun a => ?_) l
  rw [val_main_v0_apply, cidx0]

/-- Hidden unit `k` of edge `r`: the row against row `k` of the first weight matrix, plus the bias, cut off at zero. -/
theorem hidden_apply (x0 : (⟨S1000000x16, .f32⟩ : BufTy).Contents (Elt Ideal)) (x1 : (⟨S1000000x32, .f32⟩ : BufTy).Contents (Elt Ideal))
    (x2 : (⟨S1000000x16, .f32⟩ : BufTy).Contents (Elt Ideal)) (x3 : (⟨S1000000x32, .f32⟩ : BufTy).Contents (Elt Ideal))
    (x4 : (⟨S1000000, .f32⟩ : BufTy).Contents (Elt Ideal))
    (x5 : (⟨S80x97, .f32⟩ : BufTy).Contents (Elt Ideal)) (x6 : (⟨S80, .f32⟩ : BufTy).Contents (Elt Ideal))
    (r : Fin 1000000) (k : Fin 80) :
    val_main_v7 (F := Ideal) x0 x1 x2 x3 x4 x5 x6 (ix2 r k)
      = max (∑ l : Fin 97, featRow x0 x1 x2 x3 x4 r l * x5 (ix2 k l) + x6 (ix1 k)) cutoff := by
  have hsum : (∑ l : Fin 97, val_main_v1 (F := Ideal) x0 x1 x2 x3 x4 (lidx_main_v3 (ix2 r k) l)
        * val_main_v2 (F := Ideal) x5 (ridx_main_v3 (ix2 r k) l))
      = ∑ l : Fin 97, featRow x0 x1 x2 x3 x4 r l * x5 (ix2 k l) :=
    Finset.sum_congr rfl fun l _ => by rw [lidx3, joined_apply, val_main_v2_apply, ridx3]
  have hb : val_main_v5 (F := Ideal) x6 (ix2 r k) = x6 (ix1 k) := by
    rw [val_main_v5_apply, val_main_v4_apply, bidx5]
  have hz : val_main_call0_v0 (F := Ideal) (ix2 r k) = cutoff := by
    rw [val_main_call0_v0_apply]; rfl
  rw [val_main_v7_apply, val_main_v6_apply, val_main_v3_apply, hsum, hb, hz]
  rfl

/-- The output for edge `r` at column `q` is the specification's. -/
theorem out_apply (x0 : (⟨S1000000x16, .f32⟩ : BufTy).Contents (Elt Ideal)) (x1 : (⟨S1000000x32, .f32⟩ : BufTy).Contents (Elt Ideal))
    (x2 : (⟨S1000000x16, .f32⟩ : BufTy).Contents (Elt Ideal)) (x3 : (⟨S1000000x32, .f32⟩ : BufTy).Contents (Elt Ideal))
    (x4 : (⟨S1000000, .f32⟩ : BufTy).Contents (Elt Ideal))
    (x5 : (⟨S80x97, .f32⟩ : BufTy).Contents (Elt Ideal)) (x6 : (⟨S80, .f32⟩ : BufTy).Contents (Elt Ideal))
    (x7 : (⟨S64x80, .f32⟩ : BufTy).Contents (Elt Ideal)) (x8 : (⟨S64, .f32⟩ : BufTy).Contents (Elt Ideal))
    (r : Fin 1000000) (q : Fin 64) :
    val_main_v13 (F := Ideal) x0 x1 x2 x3 x4 x5 x6 x7 x8 (ix2 r q) = outAt x0 x1 x2 x3 x4 x5 x6 x7 x8 r q := by
  have hsum : (∑ k : Fin 80, val_main_v7 (F := Ideal) x0 x1 x2 x3 x4 x5 x6 (lidx_main_v9 (ix2 r q) k)
        * val_main_v8 (F := Ideal) x7 (ridx_main_v9 (ix2 r q) k))
      = ∑ k : Fin 80, max (∑ l : Fin 97, featRow x0 x1 x2 x3 x4 r l * x5 (ix2 k l) + x6 (ix1 k)) cutoff * x7 (ix2 q k) :=
    Finset.sum_congr rfl fun k _ => by rw [lidx9, hidden_apply, val_main_v8_apply, ridx9]
  have hb : val_main_v11 (F := Ideal) x8 (ix2 r q) = x8 (ix1 q) := by
    rw [val_main_v11_apply, val_main_v10_apply, bidx11]
  rw [val_main_v13_apply, val_main_v12_apply, val_main_v9_apply, hsum, hb]
  rfl

/-- The reference's result array is the specification of its nine arguments. -/
theorem result_eq (x0 : (⟨S1000000x16, .f32⟩ : BufTy).Contents (Elt Ideal)) (x1 : (⟨S1000000x32, .f32⟩ : BufTy).Contents (Elt Ideal))
    (x2 : (⟨S1000000x16, .f32⟩ : BufTy).Contents (Elt Ideal)) (x3 : (⟨S1000000x32, .f32⟩ : BufTy).Contents (Elt Ideal))
    (x4 : (⟨S1000000, .f32⟩ : BufTy).Contents (Elt Ideal))
    (x5 : (⟨S80x97, .f32⟩ : BufTy).Contents (Elt Ideal)) (x6 : (⟨S80, .f32⟩ : BufTy).Contents (Elt Ideal))
    (x7 : (⟨S64x80, .f32⟩ : BufTy).Contents (Elt Ideal)) (x8 : (⟨S64, .f32⟩ : BufTy).Contents (Elt Ideal)) :
    val_main_v13 (F := Ideal) x0 x1 x2 x3 x4 x5 x6 x7 x8 = G x0 x1 x2 x3 x4 x5 x6 x7 x8 := by
  funext i
  obtain ⟨r, q, rfl⟩ : ∃ (r : Fin 1000000) (q : Fin 64), i = ix2 r q := ⟨i 0, i 1, eq_ix2 i⟩
  exact (out_apply x0 x1 x2 x3 x4 x5 x6 x7 x8 r q).trans (G_ix2 x0 x1 x2 x3 x4 x5 x6 x7 x8 r q).symm

end Cert.EdgeMlp.Ref

end
-- ==== Proof.lean ====
/-
  The kernel computes, for each of a million edges, a two-layer network of the edge's joined feature row:
  tanh (W₂ · max (W₁ · x + b₁, 0) + b₂), with x the 97 joined columns. The kernel does it 5000 edges at a time, with
  the weight matrices transposed beforehand and 16-bit narrowings in between; the reference does it in one piece on the
  whole arrays. Over the extended reals the narrowings are the identity and a matrix product is a finite sum of
  products, so both programs end with the same function of the nine arguments, index by index (`Cert.EdgeMlp.G`):
  the kernel by its write-backs covering the output array (`Cert.EdgeMlp.Kernel.run`), the reference by reading its
  run one operation at a time (`Cert.EdgeMlp.Ref.result_eq`). No finiteness of the inputs is used: the two sides are
  the same sums, term for term.
-/
import proofs.«107543_j49349174231510_2_alg».proof.Defs
import proofs.«107543_j49349174231510_2_alg».proof.Proof.Gen.Kernel
import proofs.«107543_j49349174231510_2_alg».proof.Proof.Gen.Kernel.Skeleton
import proofs.«107543_j49349174231510_2_alg».proof.Proof.Gen.Kernel.Launch
import proofs.«107543_j49349174231510_2_alg».proof.Proof.Gen.Kernel.Points
import proofs.«107543_j49349174231510_2_alg».proof.Proof.Gen.Kernel.Frame
import proofs.«107543_j49349174231510_2_alg».proof.Proof.Gen.KernelIdeal
import proofs.«107543_j49349174231510_2_alg».proof.Proof.Gen.KernelIdeal.Skeleton
import proofs.«107543_j49349174231510_2_alg».proof.Proof.Gen.KernelIdeal.Launch
import proofs.«107543_j49349174231510_2_alg».proof.Proof.Gen.KernelIdeal.Points
import proofs.«107543_j49349174231510_2_alg».proof.Proof.Gen.KernelIdeal.Frame
import proofs.«107543_j49349174231510_2_alg».proof.Proof.Gen.ReferenceIdeal
import proofs.«107543_j49349174231510_2_alg».proof.Proof.Gen.Pre_finite_inputs
import proofs.«107543_j49349174231510_2_alg».proof.Proof.Gen.KernelIdeal.Value
import proofs.«107543_j49349174231510_2_alg».proof.Proof.Gen.ReferenceIdeal.Run
import proofs.«107543_j49349174231510_2_alg».proof.Proof.Gen.ReferenceIdeal.Read
import proofs.«107543_j49349174231510_2_alg».proof.Proof.KernelValue
import proofs.«107543_j49349174231510_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: nothing to preserve. -/
theorem preserves : Cert.preserves_Kernel_KernelIdeal := trivial

/-- From memories agreeing on the nine arguments, both programs end with the result array at the specification of
    those arguments. -/
theorem algebraic : Cert.algebraic_KernelIdeal_ReferenceIdeal := by
  intro m ρ m' ρ' _ hagree
  refine ⟨fun c => Cert.EdgeMlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.EdgeMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v13_eq, Cert.EdgeMlp.Ref.result_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
